-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S2x800000 : Shape := ⟨2, ![2, 800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : FVec F S512x256 .f32) (main_arg2 : FVec F S256 .f32) (main_arg3 : FVec F S256x64 .f32) (main_arg4 : FVec F S64 .f32) (main_arg5 : IVec S2x800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_v13 main_v16
-- ==== Kernel.lean ====
abbrev S50000x512 : Shape := ⟨2, ![50000, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 92
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x64, .f32⟩
  | .local _ .vmem, ⟨8, _⟩ => ⟨S2000x64, .f32⟩
  | .local _ .vmem, ⟨9, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x256 : Shape := ⟨2, ![512, 256]⟩
abbrev S256 : Shape := ⟨1, ![256]⟩
abbrev S256x64 : Shape := ⟨2, ![256, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x256, .f32⟩
  | .hbm, ⟨2, _⟩ => ⟨S256, .f32⟩
  | .hbm, ⟨3, _⟩ => ⟨S256x64, .f32⟩
  | .hbm, ⟨4, _⟩ => ⟨S64, .f32⟩
  | .hbm, ⟨5, _⟩ => ⟨S2x800000, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x256, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x256, .f32⟩
  | .hbm, ⟨59, _⟩ => ⟨S850000x1, .f32⟩
  | .hbm, ⟨60, _⟩ => ⟨S850000x256, .f32⟩
  | .hbm, ⟨61, _⟩ => ⟨S850000x256, .f32⟩
  | .hbm, ⟨62, _⟩ => ⟨S_, .f32⟩
  | .hbm, ⟨63, _⟩ => ⟨S50000x256, .f32⟩
  | .hbm, ⟨64, _⟩ => ⟨S850000x1, .i32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x64, .f32⟩
  | .hbm, ⟨82, _⟩ => ⟨S850000x1, .f32⟩
  | .hbm, ⟨83, _⟩ => ⟨S850000x64, .f32⟩
  | .hbm, ⟨84, _⟩ => ⟨S850000x64, .f32⟩
  | .hbm, ⟨85, _⟩ => ⟨S_, .f32⟩
  | .hbm, ⟨86, _⟩ => ⟨S50000x64, .f32⟩
  | .hbm, ⟨87, _⟩ => ⟨S850000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.RunResult.lean ====
/-
  The kernel program's run, with its result named.

  @main is eight segments in order: three stretches of host operations, the first kernel region, two more stretches,
  the second kernel region, and a last stretch. The buffer contents at each boundary are a fold from the launch
  memory: a stretch applies its operations in order, a region leaves its arrays at what its write-backs made of them
  and every other buffer as it found it. Every weakly fair execution terminates, and the final memory holds, in every
  buffer that outlives the regions, the last boundary's contents — so the result buffer holds the fold's value there,
  and each argument, which no operation and no region writes, holds what it was launched with.

  This is the composition theorem for a list of segments, applied to @main's segments: the launch hands every core
  its buffers at their launch contents, its generator register and no debts; each segment's exit state is the next
  one's entry state; and the last state, which holds every such buffer at the final contents, is read against the final
  memory.
-/
import proofs.«155589_j72275709657222_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the composition theorem's implicit arguments are found by unifying its conclusion with this statement, which takes
-- unfolding plain definitions in a metavariable's type
set_option backward.isDefEq.respectTransparency.types false in
/-- Every weakly fair execution of @main terminates, nothing faulting, with the result buffer at the last boundary's
    contents and every argument array as launched. -/
theorem run : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    -- @main is the run of its segments, each pipeline entered once
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch element is the pipelines' staging cells; no core gets a ghost resource of its own
    (hu₀ := by
      iintro Hcells
      imodintro
      isplitl [Hcells]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hcells
      · iapply (show (BI.emp : sProp 𝕄) ⊢ bigSep Finset.univ (fun _ : Dev nD => (BI.emp : sProp 𝕄)) from by
          rw [BI.bigSep_emp_const])
        iempintro)
    (T₀ := fun c => iprop(StableHlo.held (c : Thread nD τ) (Pipeline.ucRefs τ sig) (W0 m ρ c) ∗ R c)) (Tₙ := Tₙ m ρ)
    -- each segment is entered from what the one before it left; the last leaves the buffers at the final contents,
    -- the generator register, and a core that owes nothing
    (hch := ⟨fun _ => .rfl, fun _ => .rfl, fun _ => .rfl, fun _ => .rfl, fun _ => .rfl, fun _ => .rfl, fun _ => .rfl,
      fun _ => .rfl, fun c => by
        dsimp only [Pipeline.Seg.post, hseg, Pipeline.HostSeg.ofOps]
        iintro ⟨Hbufs, Hreg, Howes⟩
        isplitr [Howes]
        · isplitl [Hbufs]
          · iexact Hbufs
          · iexact Hreg
        · iexact Howes⟩)
    -- the launch deals every core its buffers at the launch memory, its register and an empty debt
    (hinit := by
      refine Pipeline.initEach L lv fun c => ?_
      rw [show unscopedBufs c (fun b => m ((c : Thread nD τ).loc b))
          = StableHlo.held (c : Thread nD τ) (Pipeline.ucRefs τ sig) (W0 m ρ c) from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      · iexists ∅; iexact Howes)
    -- the last state holds every buffer that outlives the regions at the final contents: read them off the final memory
    (QY := fun c s => ∀ b ∈ Pipeline.ucRefs τ sig, s.mem (((c : Thread nD τ)).1, b) = W8 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W8 m ρ c) s')
      isplitl [Hbufs] <;> iassumption)
    -- the result buffer and the six arguments are among those buffers; an argument's final contents walk back
    -- through the fold to the launch memory
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunResult

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.LibHostDot.lean ====
/-
  The host's product of two matrices, read entry by entry.

  On the extended reals the host's `dot_general` of an [a, K] matrix with a [K, b] matrix that contracts the left
  operand's axis 1 with the right operand's axis 0 has at entry (p, q) the value  ∑ k < K, lhs (p, k) · rhs (k, q).

  The host's product and the matrix unit's product into the zero accumulator are, entry by entry, the same sum over
  the contracted positions (the accumulator's zero adds nothing), for any dimension numbers and any extents; the
  entry-by-entry reading of the matrix unit's product then carries over word for word. No finiteness is used: the
  two sides are the same sum of the same terms.
-/
import Idealize.ShloMosaic.PureOps.Ideal.Laws
import Idealize.ShloMosaic.Lib.ValueIdx
import proofs.«155589_j72275709657222_1_alg».proof.Proof.LibPlainDot

noncomputable section

namespace Idealize.ShloMosaic.HostDot

open Idealize.ShloMosaic Idealize.ShloMosaic.ValueIdx

/-- At every output index the host's product is the matrix unit's product into the zero accumulator: both are the
    sum, over the contracted positions, of the left operand's entry times the right operand's entry. -/
theorem dotGeneral_eq_matmul_zero {sl sr so : Shape} {φ₁ φ₂ : FTy} (d : DotDims sl sr so)
    (prec prec' : Option ContractPrecision) (sched : HostSchedule)
    (lhs : FVec Ideal sl φ₁) (rhs : FVec Ideal sr φ₂) (j : so.Idx) :
    FloatOps.dotGeneral d prec sched lhs rhs j
      = FloatOps.matmul d prec' lhs rhs (constant so .f32 0x00000000#32) j :=
  (Ideal.dotGeneral_apply d prec sched lhs rhs j).trans (Ideal.matmul_constant_zero_apply d prec' lhs rhs j).symm

/-- Entry (p, q) of the host's [a, K] × [K, b] product is the sum over the contracted position of the row's entry
    times the column's entry. The four facts about the dimension numbers are decided by unfolding for a literal
    record. -/
theorem dotGeneral_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision) (sched : HostSchedule)
    (lhs : FVec Ideal (⟨2, ![a, K]⟩ : Shape) φ₁) (rhs : FVec Ideal (⟨2, ![K, b]⟩ : Shape) φ₂) (p : Fin a) (q : Fin b) :
    FloatOps.dotGeneral d prec sched lhs rhs (ix2 p q) = ∑ k : Fin K, lhs (ix2 p k) * rhs (ix2 k q) :=
  (dotGeneral_eq_matmul_zero d prec prec sched lhs rhs (ix2 p q)).trans
    (PlainDot.matmul_zero_ix2 d hr hs hlc hrc hl0 hr1 prec lhs rhs p q)

end Idealize.ShloMosaic.HostDot

end
-- ==== Proof.FirstProduct.lean ====
/-
  The first dense product. The first kernel region multiplies the node features X : [50000, 512] by the weights
  W₁ : [512, 256] in 25 blocks of 2000 rows: at grid point t it loads rows 2000·t … 2000·t + 1999 of X and all of W₁,
  multiplies them on the matrix unit into a zero accumulator (the narrowing of both operands to bf16 is the identity on
  the extended reals) and writes the [2000, 256] result back as rows 2000·t … of the output array.

  Entry (p, q) of block t is  ∑ k < 512, X (2000·t + p, k) · W₁ (k, q),  which is entry (2000·t + p, q) of the host's
  product X · W₁; the 25 blocks tile the 50000 rows, so the output array ends as the whole host product. Stated for
  any contents of the buffers at the region's entry.
-/
import proofs.«155589_j72275709657222_1_alg».proof.Proof.Gen.KernelIdeal.Frame
import proofs.«155589_j72275709657222_1_alg».proof.Proof.Gen.ReferenceIdeal
import proofs.«155589_j72275709657222_1_alg».proof.Proof.LibPlainDot
import proofs.«155589_j72275709657222_1_alg».proof.Proof.LibHostDot
import Idealize.ShloMosaic.Lib.Pipeline.Value
import Idealize.ShloMosaic.Lib.ValueIdx

set_option maxRecDepth 16384

noncomputable section

namespace Cert.KernelIdeal.FirstProduct

open Cert.KernelIdeal Cert.KernelIdeal.Gen Idealize.ShloMosaic Idealize.ShloMosaic.TcCoe Idealize.ShloMosaic.ValueIdx
open Idealize.SL.Sem

/-- The host's product of a [50000, 512] array with a [512, 256] array. -/
abbrev hostProduct (X : FVec Ideal S50000x512 .f32) (W : FVec Ideal S512x256 .f32) : FVec Ideal S50000x256 .f32 :=
  Host.dotGeneral Cert.ReferenceIdeal.dot_S50000x512_S512x256_S50000x256_1_0_0_1_n_n none X W

theorem offsets_zero : (![0, 0] : Fin 2 → Nat) = fun _ => 0 := funext fun a => by fin_cases a <;> rfl

/-- One block's product, entry by entry: the matrix unit's sum over the 512 contracted positions. -/
theorem block_entry (x0 : Vec Ideal S2000x512 .f32) (x1 : Vec Ideal S512x256 .f32) (p : Fin 2000) (q : Fin 256) :
    k0_pay1 x0 x1 (ix2 p q) = ∑ k : Fin 512, x0 (ix2 p k) * x1 (ix2 k q) := by
  unfold k0_pay1
  exact PlainDot.matmul_zero_ix2 dot_S2000x512_S512x256_S2000x256_1_0_0_1_n_n rfl rfl rfl rfl (fun _ _ => rfl) (fun _ _ => rfl)
    none _ _ p q

/-- The host's product, entry by entry. -/
theorem product_entry (X : FVec Ideal S50000x512 .f32) (W : FVec Ideal S512x256 .f32) (r : Fin 50000) (q : Fin 256) :
    hostProduct X W (ix2 r q) = ∑ k : Fin 512, X (ix2 r k) * W (ix2 k q) :=
  HostDot.dotGeneral_ix2 Cert.ReferenceIdeal.dot_S50000x512_S512x256_S50000x256_1_0_0_1_n_n rfl rfl rfl rfl
    (fun _ _ => rfl) (fun _ _ => rfl) none .single X W r q

section Region

-- the buffers' contents when the region is entered: any
variable (V : (c : Dev nD) → (b : Ref sig .tc) → Buf (Elt Ideal) ((c : Thread nD τ).loc b))

/-- The printed index maps over the 25 grid points: the left operand's and the output's blocks are block-row t, the
    right operand's block is the whole array. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the left operand's block at point t is row 2000·t + p of X. -/
theorem lhs_block (c : Dev nD) (t : Fin cfg0.N) (p : Fin 2000) (k : Fin 512) (h : 2000 * t.val + p.val < 50000) :
    iblk0 V c 0 t (ix2 p k) = V c main_arg0 (ix2 ⟨2000 * t.val + p.val, h⟩ k) := by
  obtain ⟨e0, e1, -⟩ := block_indices t
  show V c main_arg0 (((cfg0.win 0).blk t).view.emb (ix2 p k)) = _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 512 + 1 * k.val = k.val; omega

/-- The right operand's block at every point is W₁ itself. -/
theorem rhs_block (c : Dev nD) (t : Fin cfg0.N) (k : Fin 512) (q : Fin 256) :
    iblk0 V c 1 t (ix2 k q) = V c main_arg1 (ix2 k q) := by
  obtain ⟨-, -, e2, e3, -⟩ := block_indices t
  show V c main_arg1 (((cfg0.win 1).blk t).view.emb (ix2 k q)) = _
  refine congrArg _ (funext fun a => Fin.ext ?_)
  match a with
  | ⟨0, _⟩ => show win0_1.index t (0 : Fin 2) * 512 + 1 * k.val = k.val; omega
  | ⟨1, _⟩ => show win0_1.index t (1 : Fin 2) * 256 + 1 * q.val = q.val; omega

/-- What point t writes back is block-row t of the host's product of the two arrays as the region finds them. -/
theorem flushed_block (c : Dev nD) (t : Fin cfg0.N) :
    (dat0 V c).flushed 2 t
      = ((cfg0.win 2).blk t).view.read (Elt Ideal) (hostProduct (V c main_arg0) (V c main_arg1)) := by
  show (cfg0.win 2).cut (grid0.coords t) ((dat0 V c).after 2 t) = _
  rw [after0_2]
  unfold out0_2
  rw [View.canon_unit_zero offsets_zero]
  simp only [View.ld_unit_zero (S := S2000x512) offsets_zero, View.ld_unit_zero (S := S512x256) offsets_zero]
  funext y
  obtain ⟨p, q, rfl⟩ : ∃ (p : Fin 2000) (q : Fin 256), y = ix2 p q := ⟨y 0, y 1, eq_ix2 y⟩
  have ht : t.val < 25 := lt_of_lt_of_eq t.isLt N_0
  have hrow : 2000 * t.val + p.val < 50000 := by have := p.isLt; omega
  obtain ⟨-, -, -, -, e4, e5⟩ := block_indices t
  show k0_pay1 (iblk0 V c 0 t) (iblk0 V c 1 t) (ix2 p q)
      = hostProduct (V c main_arg0) (V c main_arg1) (((cfg0.win 2).blk t).view.emb (ix2 p q))
  have hemb : ((cfg0.win 2).blk t).view.emb (ix2 p q) = ix2 ⟨2000 * t.val + p.val, hrow⟩ q :=
    funext fun a => Fin.ext (by
      match a with
      | ⟨0, _⟩ => show win0_2.index t (0 : Fin 2) * 2000 + 1 * p.val = 2000 * t.val + p.val; omega
      | ⟨1, _⟩ => show win0_2.index t (1 : Fin 2) * 256 + 1 * q.val = q.val; omega)
  rw [hemb, product_entry]
  refine (block_entry _ _ p q).trans (Finset.sum_congr rfl fun k _ => ?_)
  rw [lhs_block V c t p k hrow, rhs_block V c t k q]

/-- An index of the output array is in point t's block exactly when each coordinate is in the block's range. -/
theorem mem_block (t : Fin cfg0.N) (i : S50000x256.Idx) :
    i ∈ ((cfg0.win 2).blk t).view.set
      ↔ ∀ a : Fin 2, win0_2.index t a * S2000x256.size a ≤ (i a).val
          ∧ (i a).val < win0_2.index t a * S2000x256.size a + S2000x256.size a := by
  show i ∈ ((View.whole main_v32).slice (win0_2.rect t)).set ↔ _
  rw [View.set_slice_whole, Rect.mem_set_unit]
  exact Iff.rfl

/-- The 25 blocks of 2000 rows tile the 50000 rows: row r is in the block of point r / 2000. -/
theorem covered (i : S50000x256.Idx) :
    ∃ t : Fin cfg0.N, (cfg0.win 2).flush t = true ∧ i ∈ ((cfg0.win 2).blk t).view.set := by
  have h0 : (i 0).val < 50000 := (i 0).isLt
  have h1 : (i 1).val < 256 := (i 1).isLt
  have hN : (i 0).val / 2000 < cfg0.N := lt_of_lt_of_eq (by omega : (i 0).val / 2000 < 25) N_0.symm
  refine ⟨⟨(i 0).val / 2000, hN⟩, flush0_2 _, ?_⟩
  obtain ⟨-, -, -, -, e4, e5⟩ := block_indices ⟨(i 0).val / 2000, hN⟩
  rw [mem_block]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    have e : win0_2.index ⟨(i 0).val / 2000, hN⟩ (0 : Fin 2) = (i 0).val / 2000 := e4
    omega
  | ⟨1, _⟩ =>
    show win0_2.index ⟨(i 0).val / 2000, hN⟩ (1 : Fin 2) * 256 ≤ (i 1).val
      ∧ (i 1).val < win0_2.index ⟨(i 0).val / 2000, hN⟩ (1 : Fin 2) * 256 + 256
    omega

/-- THE OUTPUT ARRAY after the region: the host's product of the two operand arrays as the region finds them. -/
theorem output_array (c : Dev nD) :
    (dat0 V c).arrAt 2 cfg0.N = hostProduct (V c main_arg0) (V c main_arg1) :=
  (dat0 V c).arrAt_eq_of_cover 2 _ (fun t _ => flushed_block V c t) covered

end Region

end Cert.KernelIdeal.FirstProduct

end
-- ==== Proof.SecondProduct.lean ====
/-
  The second dense product. The second kernel region multiplies the hidden features H : [50000, 256] (the first
  layer's output after the bias and the rectifier) by the weights W₂ : [256, 64], again in 25 blocks of 2000 rows: at
  grid point t it loads rows 2000·t … 2000·t + 1999 of H and all of W₂, multiplies them on the matrix unit into a zero
  accumulator (a reshape to the same shape and the narrowing to bf16 are both the identity on the extended reals) and
  writes the [2000, 64] result back as rows 2000·t … of the output array.

  Entry (p, q) of block t is  ∑ k < 256, H (2000·t + p, k) · W₂ (k, q),  which is entry (2000·t + p, q) of the host's
  product H · W₂; the 25 blocks tile the 50000 rows, so the output array ends as the whole host product. Stated for
  any contents of the buffers at the region's entry.
-/
import proofs.«155589_j72275709657222_1_alg».proof.Proof.Gen.KernelIdeal.Frame
import proofs.«155589_j72275709657222_1_alg».proof.Proof.Gen.ReferenceIdeal
import proofs.«155589_j72275709657222_1_alg».proof.Proof.LibPlainDot
import proofs.«155589_j72275709657222_1_alg».proof.Proof.LibHostDot
import Idealize.ShloMosaic.Lib.Pipeline.Value
import Idealize.ShloMosaic.Lib.ValueIdx

set_option maxRecDepth 16384

noncomputable section

namespace Cert.KernelIdeal.SecondProduct

open Cert.KernelIdeal Cert.KernelIdeal.Gen Idealize.ShloMosaic Idealize.ShloMosaic.TcCoe Idealize.ShloMosaic.ValueIdx
open Idealize.SL.Sem

/-- The host's product of a [50000, 256] array with a [256, 64] array. -/
abbrev hostProduct (H : FVec Ideal S50000x256 .f32) (W : FVec Ideal S256x64 .f32) : FVec Ideal S50000x64 .f32 :=
  Host.dotGeneral Cert.ReferenceIdeal.dot_S50000x256_S256x64_S50000x64_1_0_0_1_n_n none H W

theorem offsets_zero : (![0, 0] : Fin 2 → Nat) = fun _ => 0 := funext fun a => by fin_cases a <;> rfl

/-- One block's product, entry by entry: the matrix unit's sum over the 256 contracted positions; the reshape of
    the left operand to its own shape reads the same entry. -/
theorem block_entry (x0 : Vec Ideal S2000x256 .f32) (x1 : Vec Ideal S256x64 .f32) (p : Fin 2000) (q : Fin 64) :
    k1_pay1 x0 x1 (ix2 p q) = ∑ k : Fin 256, x0 (ix2 p k) * x1 (ix2 k q) := by
  unfold k1_pay1
  refine (PlainDot.matmul_zero_ix2 dot_S2000x256_S256x64_S2000x64_1_0_0_1_n_n rfl rfl rfl rfl (fun _ _ => rfl)
    (fun _ _ => rfl) none _ _ p q).trans (Finset.sum_congr rfl fun k _ => ?_)
  exact congrArg (· * x1 (ix2 k q)) (congrFun (shapeCast_self x0 _) (ix2 p k))

/-- The host's product, entry by entry. -/
theorem product_entry (H : FVec Ideal S50000x256 .f32) (W : FVec Ideal S256x64 .f32) (r : Fin 50000) (q : Fin 64) :
    hostProduct H W (ix2 r q) = ∑ k : Fin 256, H (ix2 r k) * W (ix2 k q) :=
  HostDot.dotGeneral_ix2 Cert.ReferenceIdeal.dot_S50000x256_S256x64_S50000x64_1_0_0_1_n_n rfl rfl rfl rfl
    (fun _ _ => rfl) (fun _ _ => rfl) none .single H W r q

section Region

-- the buffers' contents when the region is entered: any
variable (V : (c : Dev nD) → (b : Ref sig .tc) → Buf (Elt Ideal) ((c : Thread nD τ).loc b))

/-- The printed index maps over the 25 grid points: the left operand's and the output's blocks are block-row t, the
    right operand's block is the whole array. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left operand's block at point t is row 2000·t + p of H. -/
theorem lhs_block (c : Dev nD) (t : Fin cfg1.N) (p : Fin 2000) (k : Fin 256) (h : 2000 * t.val + p.val < 50000) :
    iblk1 V c 0 t (ix2 p k) = V c main_v49 (ix2 ⟨2000 * t.val + p.val, h⟩ k) := by
  obtain ⟨e0, e1, -⟩ := block_indices t
  show V c main_v49 (((cfg1.win 0).blk t).view.emb (ix2 p k)) = _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 256 + 1 * k.val = k.val; omega

/-- The right operand's block at every point is W₂ itself. -/
theorem rhs_block (c : Dev nD) (t : Fin cfg1.N) (k : Fin 256) (q : Fin 64) :
    iblk1 V c 1 t (ix2 k q) = V c main_arg3 (ix2 k q) := by
  obtain ⟨-, -, e2, e3, -⟩ := block_indices t
  show V c main_arg3 (((cfg1.win 1).blk t).view.emb (ix2 k q)) = _
  refine congrArg _ (funext fun a => Fin.ext ?_)
  match a with
  | ⟨0, _⟩ => show win1_1.index t (0 : Fin 2) * 256 + 1 * k.val = k.val; omega
  | ⟨1, _⟩ => show win1_1.index t (1 : Fin 2) * 64 + 1 * q.val = q.val; omega

/-- What point t writes back is block-row t of the host's product of the two arrays as the region finds them. -/
theorem flushed_block (c : Dev nD) (t : Fin cfg1.N) :
    (dat1 V c).flushed 2 t
      = ((cfg1.win 2).blk t).view.read (Elt Ideal) (hostProduct (V c main_v49) (V c main_arg3)) := by
  show (cfg1.win 2).cut (grid1.coords t) ((dat1 V c).after 2 t) = _
  rw [after1_2]
  unfold out1_2
  rw [View.canon_unit_zero offsets_zero]
  simp only [View.ld_unit_zero (S := S2000x256) offsets_zero, View.ld_unit_zero (S := S256x64) offsets_zero]
  funext y
  obtain ⟨p, q, rfl⟩ : ∃ (p : Fin 2000) (q : Fin 64), y = ix2 p q := ⟨y 0, y 1, eq_ix2 y⟩
  have ht : t.val < 25 := lt_of_lt_of_eq t.isLt N_1
  have hrow : 2000 * t.val + p.val < 50000 := by have := p.isLt; omega
  obtain ⟨-, -, -, -, e4, e5⟩ := block_indices t
  show k1_pay1 (iblk1 V c 0 t) (iblk1 V c 1 t) (ix2 p q)
      = hostProduct (V c main_v49) (V c main_arg3) (((cfg1.win 2).blk t).view.emb (ix2 p q))
  have hemb : ((cfg1.win 2).blk t).view.emb (ix2 p q) = ix2 ⟨2000 * t.val + p.val, hrow⟩ q :=
    funext fun a => Fin.ext (by
      match a with
      | ⟨0, _⟩ => show win1_2.index t (0 : Fin 2) * 2000 + 1 * p.val = 2000 * t.val + p.val; omega
      | ⟨1, _⟩ => show win1_2.index t (1 : Fin 2) * 64 + 1 * q.val = q.val; omega)
  rw [hemb, product_entry]
  refine (block_entry _ _ p q).trans (Finset.sum_congr rfl fun k _ => ?_)
  rw [lhs_block V c t p k hrow, rhs_block V c t k q]

/-- An index of the output array is in point t's block exactly when each coordinate is in the block's range. -/
theorem mem_block (t : Fin cfg1.N) (i : S50000x64.Idx) :
    i ∈ ((cfg1.win 2).blk t).view.set
      ↔ ∀ a : Fin 2, win1_2.index t a * S2000x64.size a ≤ (i a).val
          ∧ (i a).val < win1_2.index t a * S2000x64.size a + S2000x64.size a := by
  show i ∈ ((View.whole main_v50).slice (win1_2.rect t)).set ↔ _
  rw [View.set_slice_whole, Rect.mem_set_unit]
  exact Iff.rfl

/-- The 25 blocks of 2000 rows tile the 50000 rows: row r is in the block of point r / 2000. -/
theorem covered (i : S50000x64.Idx) :
    ∃ t : Fin cfg1.N, (cfg1.win 2).flush t = true ∧ i ∈ ((cfg1.win 2).blk t).view.set := by
  have h0 : (i 0).val < 50000 := (i 0).isLt
  have h1 : (i 1).val < 64 := (i 1).isLt
  have hN : (i 0).val / 2000 < cfg1.N := lt_of_lt_of_eq (by omega : (i 0).val / 2000 < 25) N_1.symm
  refine ⟨⟨(i 0).val / 2000, hN⟩, flush1_2 _, ?_⟩
  obtain ⟨-, -, -, -, e4, e5⟩ := block_indices ⟨(i 0).val / 2000, hN⟩
  rw [mem_block]
  intro a
  match a with
  | ⟨0, _⟩ =>
    show win1_2.index ⟨(i 0).val / 2000, hN⟩ (0 : Fin 2) * 2000 ≤ (i 0).val
      ∧ (i 0).val < win1_2.index ⟨(i 0).val / 2000, hN⟩ (0 : Fin 2) * 2000 + 2000
    have e : win1_2.index ⟨(i 0).val / 2000, hN⟩ (0 : Fin 2) = (i 0).val / 2000 := e4
    omega
  | ⟨1, _⟩ =>
    show win1_2.index ⟨(i 0).val / 2000, hN⟩ (1 : Fin 2) * 64 ≤ (i 1).val
      ∧ (i 1).val < win1_2.index ⟨(i 0).val / 2000, hN⟩ (1 : Fin 2) * 64 + 64
    omega

/-- THE OUTPUT ARRAY after the region: the host's product of the two operand arrays as the region finds them. -/
theorem output_array (c : Dev nD) :
    (dat1 V c).arrAt 2 cfg1.N = hostProduct (V c main_v49) (V c main_arg3) :=
  (dat1 V c).arrAt_eq_of_cover 2 _ (fun t _ => flushed_block V c t) covered

end Region

end Cert.KernelIdeal.SecondProduct

end
-- ==== Proof.OneLine.lean ====
/-
  The kernel program as one line of host operations.

  A kernel region leaves its two operand arrays as it found them, its output array at the host's product of the two
  (FirstProduct, SecondProduct), and every other buffer untouched. That is exactly what ONE host operation — a
  `dot_general` reading the two operand buffers and writing the output buffer — does to the buffer contents. So the
  contents at the last boundary of @main are the launch contents after one line of host operations: the first three
  stretches, the product X · W₁, two more stretches, the product H · W₂, and the last stretch — the reference
  program's line, operation for operation.

  The line itself makes sense over any float values; that a region IS its product operation holds on the extended reals.
-/
import proofs.«155589_j72275709657222_1_alg».proof.Proof.FirstProduct
import proofs.«155589_j72275709657222_1_alg».proof.Proof.SecondProduct

set_option maxRecDepth 16384

noncomputable section

namespace Cert.KernelIdeal.OneLine

open Cert.KernelIdeal Cert.KernelIdeal.Gen Idealize.ShloMosaic Idealize.ShloMosaic.TcCoe Idealize.SL.Sem

section Line

variable {F : FTy → Type} [FloatOps F]

/-- The first region as a host operation: the product of the node features and the first weights, into `main_v32`. -/
abbrev product1 : HloOp τ sig (Elt F) :=
  StableHlo.binary main_arg0 main_arg1 main_v32
    ((fun l r => Host.dotGeneral Cert.ReferenceIdeal.dot_S50000x512_S512x256_S50000x256_1_0_0_1_n_n none l r) :
      (⟨S50000x512, .f32⟩ : BufTy).Contents (Elt F) → (⟨S512x256, .f32⟩ : BufTy).Contents (Elt F)
        → (⟨S50000x256, .f32⟩ : BufTy).Contents (Elt F))

/-- The second region as a host operation: the product of the hidden features and the second weights, into
    `main_v50`. -/
abbrev product2 : HloOp τ sig (Elt F) :=
  StableHlo.binary main_v49 main_arg3 main_v50
    ((fun l r => Host.dotGeneral Cert.ReferenceIdeal.dot_S50000x256_S256x64_S50000x64_1_0_0_1_n_n none l r) :
      (⟨S50000x256, .f32⟩ : BufTy).Contents (Elt F) → (⟨S256x64, .f32⟩ : BufTy).Contents (Elt F)
        → (⟨S50000x64, .f32⟩ : BufTy).Contents (Elt F))

/-- The buffer contents after the whole line, from contents `V₀`: three stretches, the first product, two stretches,
    the second product, the last stretch. -/
abbrev line (V₀ : Valuation τ sig (Elt F)) : Valuation τ sig (Elt F) :=
  StableHlo.after hostOps2 (product2.result (StableHlo.after hostOps1_1 (StableHlo.after hostOps1
    (product1.result (StableHlo.after hostOps0_2 (StableHlo.after hostOps0_1 (StableHlo.after hostOps0 V₀)))))))

end Line

variable (m : (ℓ : Loc nD τ sig) → Buf (Elt Ideal) ℓ) (ρ : Dev nD → PrngReg)

/-- The first region's exit contents are its entry contents after the one product operation: the output array is the
    host's product, the two operand arrays and every other buffer are as entered. -/
theorem region0_is_product (c : Dev nD) : W4 m ρ c = (product1 (F := Ideal)).result (W3 m ρ c) := by
  funext b
  by_cases hb : b = Proc.devRef .tc main_v32
  · subst hb
    exact (W4_arr m ρ c 2).trans ((FirstProduct.output_array (V3 m ρ) c).trans
      (StableHlo.binary_result main_arg0 main_arg1 main_v32 _ _ _ _ (W3 m ρ c)).symm)
  · rw [HloOp.result_of_not_mem _ _ (by rw [StableHlo.binary_writes, Finset.mem_singleton]; exact hb)]
    by_cases h0 : b = Proc.devRef .tc main_arg0
    · subst h0
      exact (W4_arr m ρ c 0).trans (((dat0 (V3 m ρ) c).arrAt_in 0 rfl _).trans (A_eq0 (V3 m ρ) c 0))
    by_cases h1 : b = Proc.devRef .tc main_arg1
    · subst h1
      exact (W4_arr m ρ c 1).trans (((dat0 (V3 m ρ) c).arrAt_in 1 rfl _).trans (A_eq0 (V3 m ρ) c 1))
    · unfold W4 Pipeline.withArrays
      rw [dif_neg]
      rintro ⟨w, e⟩
      match w with
      | ⟨0, _⟩ => exact h0 e.symm
      | ⟨1, _⟩ => exact h1 e.symm
      | ⟨2, _⟩ => exact hb e.symm

/-- The second region's exit contents are its entry contents after the one product operation. -/
theorem region1_is_product (c : Dev nD) : W7 m ρ c = (product2 (F := Ideal)).result (W6 m ρ c) := by
  funext b
  by_cases hb : b = Proc.devRef .tc main_v50
  · subst hb
    exact (W7_arr m ρ c 2).trans ((SecondProduct.output_array (V6 m ρ) c).trans
      (StableHlo.binary_result main_v49 main_arg3 main_v50 _ _ _ _ (W6 m ρ c)).symm)
  · rw [HloOp.result_of_not_mem _ _ (by rw [StableHlo.binary_writes, Finset.mem_singleton]; exact hb)]
    by_cases h0 : b = Proc.devRef .tc main_v49
    · subst h0
      exact (W7_arr m ρ c 0).trans (((dat1 (V6 m ρ) c).arrAt_in 0 rfl _).trans (A_eq1 (V6 m ρ) c 0))
    by_cases h1 : b = Proc.devRef .tc main_arg3
    · subst h1
      exact (W7_arr m ρ c 1).trans (((dat1 (V6 m ρ) c).arrAt_in 1 rfl _).trans (A_eq1 (V6 m ρ) c 1))
    · unfold W7 Pipeline.withArrays
      rw [dif_neg]
      rintro ⟨w, e⟩
      match w with
      | ⟨0, _⟩ => exact h0 e.symm
      | ⟨1, _⟩ => exact h1 e.symm
      | ⟨2, _⟩ => exact hb e.symm

/-- THE LAST BOUNDARY'S CONTENTS are the launch contents after the line. -/
theorem last_boundary (c : Dev nD) : W8 m ρ c = line (F := Ideal) (W0 m ρ c) := by
  show StableHlo.after hostOps2 (W7 m ρ c) = _
  rw [region1_is_product]
  show StableHlo.after hostOps2 ((product2 (F := Ideal)).result (StableHlo.after hostOps1_1 (StableHlo.after hostOps1 (W4 m ρ c)))) = _
  rw [region0_is_product]

end Cert.KernelIdeal.OneLine

end
-- ==== Proof.SameResult.lean ====
/-
  The two programs compute the same array.

  The kernel program's result is the launch contents after one line of host operations (OneLine): three stretches, the
  product X · W₁, two stretches, the product H · W₂, one stretch. The reference program is that same line, operation
  for operation and literal for literal: the added self-loops and the source and destination lists, the in-degrees by a
  scatter-add of ones, the symmetric normalisation  rsqrt(max(deg, 1))  where the degree is positive, and, per layer,
  the gather of the product's rows by source, the scaling, the scatter-add by destination, and the bias (with the
  rectifier between the layers). Reading the result buffer through the line, one operation at a time, gives on both
  sides the same composed term of the six argument arrays; the arguments agree by hypothesis. Nothing is rearranged:
  the two terms are the same term, over any float values, so no finiteness is needed.
-/
import proofs.«155589_j72275709657222_1_alg».proof.Proof.OneLine
import proofs.«155589_j72275709657222_1_alg».proof.Proof.RefRun

set_option maxRecDepth 16384

noncomputable section

namespace Cert.Proof.SameResult

open Idealize.ShloMosaic Idealize.ShloMosaic.TcCoe Idealize.SL.Sem Idealize.ShloMosaic.StableHlo

section AnyValues

variable {F : FTy → Type} [FloatOps F]

set_option maxHeartbeats 40000000 in
/-- Over any float values: after the line, the result buffer holds the reference program's composed term of the
    arguments, when the two launch memories agree on the six arguments. -/
theorem line_result
    (m : (ℓ : Loc Cert.KernelIdeal.nD Cert.KernelIdeal.τ Cert.KernelIdeal.sig) → Buf (Elt F) ℓ)
    (ρ : Dev Cert.KernelIdeal.nD → PrngReg)
    (m' : (ℓ : Loc Cert.ReferenceIdeal.nD Cert.ReferenceIdeal.τ Cert.ReferenceIdeal.sig) → Buf (Elt F) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    Cert.KernelIdeal.OneLine.line (Cert.KernelIdeal.Gen.W0 m ρ c) (Proc.devRef .tc Cert.KernelIdeal.main_v66)
      = Cert.ReferenceIdeal.ValueP.res_main_v66 m' c := by
  -- read the result buffer through the line, one operation at a time
  simp (disch := decide) only [Cert.KernelIdeal.OneLine.line,
    Cert.KernelIdeal.Gen.hostOps0, Cert.KernelIdeal.Gen.hostOps0_1, Cert.KernelIdeal.Gen.hostOps0_2,
    Cert.KernelIdeal.Gen.hostOps1, Cert.KernelIdeal.Gen.hostOps1_1, Cert.KernelIdeal.Gen.hostOps2,
    Cert.KernelIdeal.OneLine.product1, Cert.KernelIdeal.OneLine.product2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  -- the reference's composed term, its arguments rewritten to the kernel program's by the agreement
  unfold Cert.ReferenceIdeal.ValueP.res_main_v66
  rw [h0, h1, h2, h3, h4, h5]
  rfl

end AnyValues

/-- On the extended reals the kernel program's last boundary holds, in the result buffer, the reference program's
    composed term of the arguments, when the two launch memories agree on the six arguments. -/
theorem result_eq
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    Cert.KernelIdeal.Gen.W8 m ρ c (Proc.devRef .tc Cert.KernelIdeal.main_v66)
      = Cert.ReferenceIdeal.ValueP.res_main_v66 m' c :=
  (congrFun (Cert.KernelIdeal.OneLine.last_boundary m ρ c) (Proc.devRef .tc Cert.KernelIdeal.main_v66)).trans
    (line_result m ρ m' c h0 h1 h2 h3 h4 h5)

end Cert.Proof.SameResult

end
-- ==== Proof.lean ====
/-
  A two-layer graph convolution over 50000 nodes and 800000 edges, computed two ways, gives the same [50000, 64] array
  on the extended reals.

  Both programs add a self-loop to every node, count in-degrees by a scatter-add of ones over the destinations, and
  weigh edge e by  norm(e) = dis(src e) · dis(dst e),  dis = rsqrt(max(deg, 1)) where deg > 0 and 0 elsewhere. A layer
  multiplies the node features by a weight matrix, gathers the product's rows by source, scales row e by norm(e),
  scatter-adds the rows by destination and adds a bias; the rectifier stands between the two layers. The reference
  takes both products on the host. The kernel program takes each in a kernel region tiled over the nodes, 25 blocks of
  2000 rows, on the matrix unit with both operands narrowed to bf16 — the identity on the extended reals — into a zero
  accumulator; everything else it computes with the reference's own host operations.

  * Each region's output array is the host's product of its two operand arrays: a block's entry (p, q) is the sum over
    the contracted position of the row's entry times the column's entry, which is the host product's entry
    (2000·t + p, q), and the blocks tile the rows (FirstProduct, SecondProduct).
  * So a region does to the buffer contents what one host `dot_general` does, and the kernel program's result is the
    launch contents after one line of host operations (OneLine), read out of the final memory (RunResult).
  * That line is the reference's, operation for operation, so the result buffer holds the same composed term of the
    six arguments on both sides (SameResult). No sum is reordered and no product distributed: the precondition that the
    inputs are finite is not used.

  The three frames: the two kernel programs' are the generated frame certificates; the reference's is its run with the
  result dropped. The idealisation rewrote no operation, so `preserves` has nothing to state.
-/
import proofs.«155589_j72275709657222_1_alg».proof.Defs
import proofs.«155589_j72275709657222_1_alg».proof.Proof.Gen.Kernel
import proofs.«155589_j72275709657222_1_alg».proof.Proof.Gen.Kernel.Skeleton
import proofs.«155589_j72275709657222_1_alg».proof.Proof.Gen.Kernel.Launch
import proofs.«155589_j72275709657222_1_alg».proof.Proof.Gen.Kernel.Points
import proofs.«155589_j72275709657222_1_alg».proof.Proof.Gen.Kernel.Frame
import proofs.«155589_j72275709657222_1_alg».proof.Proof.Gen.KernelIdeal
import proofs.«155589_j72275709657222_1_alg».proof.Proof.Gen.KernelIdeal.Skeleton
import proofs.«155589_j72275709657222_1_alg».proof.Proof.Gen.KernelIdeal.Launch
import proofs.«155589_j72275709657222_1_alg».proof.Proof.Gen.KernelIdeal.Points
import proofs.«155589_j72275709657222_1_alg».proof.Proof.Gen.KernelIdeal.Frame
import proofs.«155589_j72275709657222_1_alg».proof.Proof.Gen.ReferenceIdeal
import proofs.«155589_j72275709657222_1_alg».proof.Proof.Gen.Pre_finite_inputs
import proofs.«155589_j72275709657222_1_alg».proof.Proof.RefRun
import proofs.«155589_j72275709657222_1_alg».proof.Proof.RunResult
import proofs.«155589_j72275709657222_1_alg».proof.Proof.SameResult
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments both programs run, and both end with the result buffer at the
    kernel program's last boundary contents: the kernel program by its run, the reference because its composed term is
    that array. -/
theorem algebraic : Cert.algebraic_KernelIdeal_ReferenceIdeal := by
  intro m ρ m' ρ' _ hagree
  refine ⟨fun c => Cert.KernelIdeal.Gen.W8 m ρ c (Proc.devRef .tc Cert.KernelIdeal.main_v66),
    Cert.KernelIdeal.RunResult.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  exact (Cert.Proof.SameResult.result_eq m ρ m' c h0 h1 h2 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
